-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x16 : Shape := ⟨2, ![128, 16]⟩
abbrev S16 : Shape := ⟨1, ![16]⟩
abbrev S16x128 : Shape := ⟨2, ![16, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S16x128 1) : IVec S_ 1 :=
  let main_c_5 : IVec S_ 1 := constantI S_ 1 1#1
  let main_v17 : IVec S_ 1 := (fun x v => Host.reduce IntOp.andi x v reducesTo_S16x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x16 .f32) (main_arg3 : FVec F S16 .f32) (main_arg4 : FVec F S16x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x128 .f32 := Host.absf main_arg4
  let main_cst_4 : FVec F S_ .f32 := constant S_ .f32 0x7F800000#32
  let main_v15 : FVec F S16x128 .f32 := broadcastInDim S16x128 ![] bcast_S_S16x128 main_cst_4
  let main_v16 : IVec S16x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x16 : Shape := ⟨2, ![128, 16]⟩
abbrev S16 : Shape := ⟨1, ![16]⟩
abbrev S16x128 : Shape := ⟨2, ![16, 128]⟩
abbrev S128 : Shape := ⟨1, ![128]⟩
abbrev S1x1600000 : Shape := ⟨2, ![1, 1600000]⟩
abbrev S1600000 : Shape := ⟨1, ![1600000]⟩
abbrev S100000x16 : Shape := ⟨2, ![100000, 16]⟩
abbrev S10000x128 : Shape := ⟨2, ![10000, 128]⟩
abbrev S10000x16 : Shape := ⟨2, ![10000, 16]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x16 : Shape := ⟨2, ![1700000, 16]⟩
abbrev S1x16 : Shape := ⟨2, ![1, 16]⟩
abbrev S1700000x128 : Shape := ⟨2, ![1700000, 128]⟩
abbrev S1x128 : Shape := ⟨2, ![1, 128]⟩

abbrev nBuf : Space → Nat
  | .hbm => 120
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x16, .f32⟩
  | .hbm, ⟨3, _⟩ => ⟨S16, .f32⟩
  | .hbm, ⟨4, _⟩ => ⟨S16x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x16, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x16, .f32⟩
  | .hbm, ⟨56, _⟩ => ⟨S1700000x1, .f32⟩
  | .hbm, ⟨57, _⟩ => ⟨S1700000x16, .f32⟩
  | .hbm, ⟨58, _⟩ => ⟨S1700000x16, .f32⟩
  | .hbm, ⟨59, _⟩ => ⟨S_, .f32⟩
  | .hbm, ⟨60, _⟩ => ⟨S100000x16, .f32⟩
  | .hbm, ⟨61, _⟩ => ⟨S1700000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x128, .f32⟩
  | .hbm, ⟨66, _⟩ => ⟨S100000, .i32⟩
  | .hbm, ⟨67, _⟩ => ⟨S1700000, .i32⟩
  | .hbm, ⟨68, _⟩ => ⟨S1700000, .i32⟩
  | .hbm, ⟨69, _⟩ => ⟨S_, .f32⟩
  | .hbm, ⟨70, _⟩ => ⟨S1700000, .f32⟩
  | .hbm, ⟨71, _⟩ => ⟨S_, .f32⟩
  | .hbm, ⟨72, _⟩ => ⟨S100000, .f32⟩
  | .hbm, ⟨73, _⟩ => ⟨S1700000x1, .i32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .i1⟩
  | .hbm, ⟨78, _⟩ => ⟨S100000, .f32⟩
  | .hbm, ⟨79, _⟩ => ⟨S_, .f32⟩
  | .hbm, ⟨80, _⟩ => ⟨S_, .f32⟩
  | .hbm, ⟨81, _⟩ => ⟨S100000, .f32⟩
  | .hbm, ⟨82, _⟩ => ⟨S100000, .f32⟩
  | .hbm, ⟨83, _⟩ => ⟨S_, .i32⟩
  | .hbm, ⟨84, _⟩ => ⟨S1700000, .i32⟩
  | .hbm, ⟨85, _⟩ => ⟨S1700000, .i1⟩
  | .hbm, ⟨86, _⟩ => ⟨S_, .i32⟩
  | .hbm, ⟨87, _⟩ => ⟨S1700000, .i32⟩
  | .hbm, ⟨88, _⟩ => ⟨S1700000, .i32⟩
  | .hbm, ⟨89, _⟩ => ⟨S1700000, .i32⟩
  | .hbm, ⟨90, _⟩ => ⟨S1700000x1, .i32⟩
  | .hbm, ⟨91, _⟩ => ⟨S1700000, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000, .f32⟩
  | .hbm, ⟨101, _⟩ => ⟨S1700000, .f32⟩
  | .hbm, ⟨102, _⟩ => ⟨S_, .i32⟩
  | .hbm, ⟨103, _⟩ => ⟨S1700000, .i32⟩
  | .hbm, ⟨104, _⟩ => ⟨S1700000, .i1⟩
  | .hbm, ⟨105, _⟩ => ⟨S_, .i32⟩
  | .hbm, ⟨106, _⟩ => ⟨S1700000, .i32⟩
  | .hbm, ⟨107, _⟩ => ⟨S1700000, .i32⟩
  | .hbm, ⟨108, _⟩ => ⟨S1700000, .i32⟩
  | .hbm, ⟨109, _⟩ => ⟨S1700000x1, .i32⟩
  | .hbm, ⟨110, _⟩ => ⟨S1700000x128, .f32⟩
  | .hbm, ⟨111, _⟩ => ⟨S1700000x1, .f32⟩
  | .hbm, ⟨112, _⟩ => ⟨S1700000x128, .f32⟩
  | .hbm, ⟨113, _⟩ => ⟨S1700000x128, .f32⟩
  | .hbm, ⟨114, _⟩ => ⟨S_, .f32⟩
  | .hbm, ⟨115, _⟩ => ⟨S100000x128, .f32⟩
  | .hbm, ⟨116, _⟩ => ⟨S1700000x1, .i32⟩
  | .hbm, ⟨117, _⟩ => ⟨S100000x128, .f32⟩
  | .hbm, ⟨118, _⟩ => ⟨S1x128, .f32⟩
  | .hbm, ⟨119, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S16x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_call1_v0 : Ref sig .tc := ⟨.hbm, 80, rfl⟩
abbrev main_call1_v1 : Ref sig .tc := ⟨.hbm, 81, rfl⟩
abbrev main_v57 : Ref sig .tc := ⟨.hbm, 82, rfl⟩
abbrev main_c_13 : Ref sig .tc := ⟨.hbm, 83, rfl⟩
abbrev main_v58 : Ref sig .tc := ⟨.hbm, 84, rfl⟩
abbrev main_v59 : Ref sig .tc := ⟨.hbm, 85, rfl⟩
abbrev main_c_14 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_15 : Ref sig .tc := ⟨.hbm, 92, rfl⟩
abbrev main_v65 : Ref sig .tc := ⟨.hbm, 93, rfl⟩
abbrev main_v66 : Ref sig .tc := ⟨.hbm, 94, rfl⟩
abbrev main_c_16 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_17 : Ref sig .tc := ⟨.hbm, 102, rfl⟩
abbrev main_v73 : Ref sig .tc := ⟨.hbm, 103, rfl⟩
abbrev main_v74 : Ref sig .tc := ⟨.hbm, 104, rfl⟩
abbrev main_c_18 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_19 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x128_S16x128_0_0 : ∀ a, (![0, 0] : Fin 2 → Nat) a + S16x128.size a ≤ S16x128.size a
  h_S16x128 : 0 < S16x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  dot_S10000x128_S128x16_S10000x16_1_0_0_1_n_n_wf : DotDims.WF S10000x128 S128x16 S10000x16 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S10000x16_S16x128_S10000x128_1_0_0_1_n_n_wf : DotDims.WF S10000x16 S16x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x128.size a ≤ S16x128.size a
  hwx2_1 : ∀ i : grid2.Coords, EltTy.bits .f32 = 32 ∨ (Rect.block (s := S16x128) S16x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S10000x16_S16x128_S10000x128_1_0_0_1_n_n : DotDims S10000x16 S16x128 S10000x128 where
  lhsContracting := [1]
  rhsContracting := [0]
  lhsNonContracting := [0]
  rhsNonContracting := [1]
  lhsBatch := []
  rhsBatch := []
  wf := dot_S10000x16_S16x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v85) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v86) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v87) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x16 : Shape := ⟨2, ![128, 16]⟩
abbrev S16 : Shape := ⟨1, ![16]⟩
abbrev S16x128 : Shape := ⟨2, ![16, 128]⟩
abbrev S128 : Shape := ⟨1, ![128]⟩
abbrev S1x1600000 : Shape := ⟨2, ![1, 1600000]⟩
abbrev S1600000 : Shape := ⟨1, ![1600000]⟩
abbrev S100000x16 : Shape := ⟨2, ![100000, 16]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x16 : Shape := ⟨2, ![1700000, 16]⟩
abbrev S1x16 : Shape := ⟨2, ![1, 16]⟩
abbrev S1700000x128 : Shape := ⟨2, ![1700000, 128]⟩
abbrev S1x128 : Shape := ⟨2, ![1, 128]⟩

abbrev nBuf : Space → Nat
  | .hbm => 125
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x16, .f32⟩
  | .hbm, ⟨3, _⟩ => ⟨S16, .f32⟩
  | .hbm, ⟨4, _⟩ => ⟨S16x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x16, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x16, .f32⟩
  | .hbm, ⟨56, _⟩ => ⟨S1700000x1, .f32⟩
  | .hbm, ⟨57, _⟩ => ⟨S1700000x16, .f32⟩
  | .hbm, ⟨58, _⟩ => ⟨S1700000x16, .f32⟩
  | .hbm, ⟨59, _⟩ => ⟨S_, .f32⟩
  | .hbm, ⟨60, _⟩ => ⟨S100000x16, .f32⟩
  | .hbm, ⟨61, _⟩ => ⟨S1700000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x128, .f32⟩
  | .hbm, ⟨70, _⟩ => ⟨S100000, .i32⟩
  | .hbm, ⟨71, _⟩ => ⟨S1700000, .i32⟩
  | .hbm, ⟨72, _⟩ => ⟨S1700000, .i32⟩
  | .hbm, ⟨73, _⟩ => ⟨S_, .f32⟩
  | .hbm, ⟨74, _⟩ => ⟨S1700000, .f32⟩
  | .hbm, ⟨75, _⟩ => ⟨S_, .f32⟩
  | .hbm, ⟨76, _⟩ => ⟨S100000, .f32⟩
  | .hbm, ⟨77, _⟩ => ⟨S1700000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000, .f32⟩
  | .hbm, ⟨105, _⟩ => ⟨S1700000, .f32⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x128, .f32⟩
  | .hbm, ⟨115, _⟩ => ⟨S1700000x1, .f32⟩
  | .hbm, ⟨116, _⟩ => ⟨S1700000x128, .f32⟩
  | .hbm, ⟨117, _⟩ => ⟨S1700000x128, .f32⟩
  | .hbm, ⟨118, _⟩ => ⟨S_, .f32⟩
  | .hbm, ⟨119, _⟩ => ⟨S100000x128, .f32⟩
  | .hbm, ⟨120, _⟩ => ⟨S1700000x1, .i32⟩
  | .hbm, ⟨121, _⟩ => ⟨S100000x128, .f32⟩
  | .hbm, ⟨122, _⟩ => ⟨S1x128, .f32⟩
  | .hbm, ⟨123, _⟩ => ⟨S100000x128, .f32⟩
  | .hbm, ⟨124, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x16_S100000x16_1_0_0_1_n_n_wf : DotDims.WF S100000x128 S128x16 S100000x16 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S100000x16_S16x128_S100000x128_1_0_0_1_n_n_wf : DotDims.WF S100000x16 S16x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S100000x16_S16x128_S100000x128_1_0_0_1_n_n : DotDims S100000x16 S16x128 S100000x128 where
  lhsContracting := [1]
  rhsContracting := [0]
  lhsNonContracting := [0]
  rhsNonContracting := [1]
  lhsBatch := []
  rhsBatch := []
  wf := dot_S100000x16_S16x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.AggRef.lean ====
/-
  The graph step both programs apply on the host, as named functions of the edges' sources `s` and targets `d` (1,600,000
  node numbers each: the two rows of the edge list) and of a node-feature matrix `h`:

    row0 e, row1 e       the two rows of the edge list `e`;
    withLoops s          the 1,600,000 node numbers followed by 0 … 99,999 (one self loop per node);
    wrapIdx i            a negative node number read from the end (i + 100000 where i < 0);
    deg d                the number of edges, self loop included, that END at each node: a scatter-add of ones at the targets;
    dinv d               deg^(-1/2) where deg > 0, and 0 elsewhere;
    norm s d             per edge, dinv at its source times dinv at its target;
    agg16 s d h, agg128 s d h   the scatter-add, at each edge's target, of row `source` of `h` scaled by the edge's `norm`
                          (for feature widths 16 and 128).

  They are spelt with this program's own shapes and dimension records, operation by operation as its @main has them, and
  are never opened again: what goes into them is shown equal, and they are carried as one function.
-/
import proofs.«146971_j83124797047347_1_alg».proof.Proof.Gen.ReferenceIdeal

noncomputable section

namespace Cert.ReferenceIdeal.Agg

open Cert.ReferenceIdeal Cert.ReferenceIdeal.Gen Idealize.ShloMosaic

variable {F : FTy → Type} [FloatOps F]

/-- Row 0 of the edge list: the edges' sources. -/
def row0 (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000

/-- Row 1 of the edge list: the edges' targets. -/
def row1 (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- The edges' ends, then every node once (its self loop). -/
def withLoops (s : (⟨S1600000, .i32⟩ : BufTy).Contents (Elt F)) : (⟨S1700000, .i32⟩ : BufTy).Contents (Elt F) :=
  concatenate S1700000 0 [⟨S1600000, s⟩, ⟨S100000, (iotaInDim S100000 32 0)⟩] concatenates_S1600000_S100000_S1700000_d0

/-- A negative node number counts from the end: `i + 100000` where `i < 0`, else `i`. -/
def wrapIdx (i : (⟨S1700000, .i32⟩ : BufTy).Contents (Elt F)) : (⟨S1700000, .i32⟩ : BufTy).Contents (Elt F) :=
  select (cmpi .slt i (broadcastInDim S1700000 ![] bcast_S_S1700000 (constantI S_ 32 0#32))) (addi i (broadcastInDim S1700000 ![] bcast_S_S1700000 (constantI S_ 32 100000#32))) i

/-- How many edges (self loop included) end at each node. -/
def deg (d : (⟨S1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 (withLoops (F := F) d)) (broadcastInDim S1700000 ![] bcast_S_S1700000 (constant S_ .f32 0x3F800000#32))

/-- `deg^(-1/2)` where the degree is positive, `0` elsewhere. -/
def dinv (d : (⟨S1600000, .i32⟩ : BufTy).Contents (Elt F)) : (⟨S100000, .f32⟩ : BufTy).Contents (Elt F) :=
  select (cmpf (F := F) .ogt (deg d) (broadcastInDim S100000 ![] bcast_S_S100000 (constant S_ .f32 0x00000000#32))) (Host.rsqrt (deg d)) (broadcastInDim S100000 ![] bcast_S_S100000 (id (constant S_ .f32 0x00000000#32)))

/-- Per edge: `dinv` at its source times `dinv` at its target. -/
def norm (s d : (⟨S1600000, .i32⟩ : BufTy).Contents (Elt F)) : (⟨S1700000, .f32⟩ : BufTy).Contents (Elt F) :=
  mulf (Host.gather gather_S100000_S1700000x1_S1700000_n_0_n_n_0_1_1 (dinv d) (broadcastInDim S1700000x1 ![0] bcast_S1700000_S1700000x1_0 (wrapIdx (F := F) (withLoops (F := F) s)))) (Host.gather gather_S100000_S1700000x1_S1700000_n_0_n_n_0_1_1 (dinv d) (broadcastInDim S1700000x1 ![0] bcast_S1700000_S1700000x1_0 (wrapIdx (F := F) (withLoops (F := F) d))))

/-- The normalized neighbourhood sum of a 16-column feature matrix: at each node, the sum over the edges ending there of the
    source's row times the edge's `norm`. -/
def agg16 (s d : (⟨S1600000, .i32⟩ : BufTy).Contents (Elt F)) (h : (⟨S100000x16, .f32⟩ : BufTy).Contents (Elt F)) : (⟨S100000x16, .f32⟩ : BufTy).Contents (Elt F) :=
  Host.scatterAdd scatter_S100000x16_S1700000x1_S1700000x16_1_0_0_1 (broadcastInDim S100000x16 ![] bcast_S_S100000x16 (constant S_ .f32 0x00000000#32)) (broadcastInDim S1700000x1 ![0] bcast_S1700000_S1700000x1_0 (withLoops (F := F) d)) (mulf (Host.gather gather_S100000x16_S1700000x1_S1700000x16_1_0_n_n_0_1_116 h (broadcastInDim S1700000x1 ![0] bcast_S1700000_S1700000x1_0 (wrapIdx (F := F) (withLoops (F := F) s)))) (broadcastInDim S1700000x16 ![0, 1] bcast_S1700000x1_S1700000x16_0_1 (broadcastInDim S1700000x1 ![0] bcast_S1700000_S1700000x1_0 (norm s d))))

/-- The same for a 128-column feature matrix. -/
def agg128 (s d : (⟨S1600000, .i32⟩ : BufTy).Contents (Elt F)) (h : (⟨S100000x128, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (withLoops (F := F) d)) (mulf (Host.gather gather_S100000x128_S1700000x1_S1700000x128_1_0_n_n_0_1_1128 h (broadcastInDim S1700000x1 ![0] bcast_S1700000_S1700000x1_0 (wrapIdx (F := F) (withLoops (F := F) s)))) (broadcastInDim S1700000x128 ![0, 1] bcast_S1700000x1_S1700000x128_0_1 (broadcastInDim S1700000x1 ![0] bcast_S1700000_S1700000x1_0 (norm s d))))

end Cert.ReferenceIdeal.Agg

end
-- ==== Proof.LibMatDot.lean ====
/-
  The product of an m×k matrix by a k×n matrix, read at one entry, at the ideal values: both the vector unit's
  matrix product into a zero accumulator and the host's `dot_general` with the dimension numbers
  (contracting [1]×[0], no batch axis) are the sum over the contracted coordinate of the products of the entries,
  `∑ c, A (a, c) * B (c, b)`, whatever the element formats of the operands and whatever proof of well-formedness
  the record of dimension numbers carries. Also three broadcasts read at an entry: a column `[a, 1]` laid across
  `b` columns (the vector unit's and the host's), a vector of `n` entries laid along every row through a one-row
  matrix (the host's two-step form), and a scalar constant laid over a shape.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

open scoped BigOperators

namespace Cert.Lib.MatDot

open Idealize.ShloMosaic Idealize.ShloMosaic.ValueIdx

variable {m k n : Nat} {φ₁ φ₂ : FTy}

/-- The left operand's entry that output entry `(a, b)` meets at contraction position `c` is `(a, c)`. -/
theorem lhsIdx_eq (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- The right operand's entry there is `(c, b)`. -/
theorem rhsIdx_eq (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- The host's matrix product at entry `(a, b)` is `∑ c, A (a, c) * B (c, b)`. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply, ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_eq w a b c, rhsIdx_eq w a b c]

/-- The vector unit's matrix product into the zero accumulator at entry `(a, b)` is the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B (constant (F := Ideal) ⟨2, ![m, n]⟩ .f32 0x00000000#32) (ix2 a b) = _
  rw [Ideal.matmul_constant_zero_apply, ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_eq w a b c, rhsIdx_eq w a b c]

variable {α : Type}

/-- A column `[a, 1]` laid across `b` columns by the vector unit's broadcast reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` along axes `[0, 1]` reads the same. -/
theorem broadcastInDim_col_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A vector of `n` entries made a one-row matrix along axis 1 by the host reads, at `(u, t)`, the vector at `t`. -/
theorem broadcastInDim_vec_oneRow_apply {n : ℕ} (h : (⟨1, ![n]⟩ : Shape).BroadcastsInDim ⟨2, ![1, n]⟩ ![1])
    (x : (⟨1, ![n]⟩ : Shape).Idx → α) (u : Fin 1) (t : Fin n) :
    broadcastInDim ⟨2, ![1, n]⟩ ![1] h x (ix2 u t) = x (ix1 t) := by
  refine broadcastInDim_apply ![1] h x (ix2 u t) (ix1 t) fun ax => ?_
  match ax with
  | ⟨0, _⟩ =>
    show t.val = if n = 1 then 0 else t.val
    split
    · have := t.isLt; omega
    · rfl

/-- So the host's two-step row broadcast (a vector to one row, the row down `m` rows) reads, at `(r, t)`, the vector at `t`. -/
theorem broadcastInDim_vec_rows_apply {m n : ℕ} (h1 : (⟨1, ![n]⟩ : Shape).BroadcastsInDim ⟨2, ![1, n]⟩ ![1])
    (h2 : (⟨2, ![1, n]⟩ : Shape).BroadcastsInDim ⟨2, ![m, n]⟩ ![0, 1]) (x : (⟨1, ![n]⟩ : Shape).Idx → α) (r : Fin m) (t : Fin n) :
    broadcastInDim ⟨2, ![m, n]⟩ ![0, 1] h2 (broadcastInDim ⟨2, ![1, n]⟩ ![1] h1 x) (ix2 r t) = x (ix1 t) :=
  (Idealize.ShloMosaic.broadcastInDim_oneRow_apply h2 _ r t).trans (broadcastInDim_vec_oneRow_apply h1 x 0 t)

/-- The vector unit's form of the same: the vector cast to one row, the row laid down `m` rows. -/
theorem broadcastTo_vec_rows_apply {m n : ℕ} (h1 : (⟨1, ![n]⟩ : Shape).ShapeCasts ⟨2, ![1, n]⟩)
    (h2 : (⟨2, ![1, n]⟩ : Shape).Broadcasts ⟨2, ![m, n]⟩) (x : (⟨1, ![n]⟩ : Shape).Idx → α) (r : Fin m) (t : Fin n) :
    broadcastTo ⟨2, ![m, n]⟩ (shapeCast ⟨2, ![1, n]⟩ x h1) h2 (ix2 r t) = x (ix1 t) :=
  (broadcastTo_1b_ab_apply _ h2 r t).trans (shapeCast_a_1a_apply x h1 0 t)

end Cert.Lib.MatDot

end
-- ==== Proof.LibDenseRows.lean ====
/-
  The dense steps of a layer as functions of whole matrices, entry by entry, on the extended reals (general in the extents):

    matProd X W   the product of an m×k matrix by a k×n matrix: entry (a, b) is  ∑ c, X (a, c) · W (c, b);
    addRow A B    a one-row matrix B added to every row of A: entry (a, b) is  A (a, b) + B (0, b);
    addRowRelu    the same followed by the rectifier, max (·, 0).

  with the host's forms of the same functions: `dot_general` (contracting [1]×[0]) is `matProd`; the sum with a vector laid
  along every row (the vector made one row, the row laid down the rows) is `addRow` of the vector cast to a one-row matrix;
  that sum followed by `maximum` with the zero constant is `addRowRelu`. A program that computes these a row block at a time
  and one that computes them in one host operation agree entry by entry, in the same order of operations: no law of
  arithmetic is needed to join them, so no finiteness of the inputs either.
  (It imports this directory's copy of LibMatDot.lean: a matrix product read at an entry, row broadcasts read at an entry.)
-/
import proofs.«146971_j83124797047347_1_alg».proof.Proof.LibMatDot

noncomputable section

open scoped BigOperators

namespace Cert.Dense

open Idealize.ShloMosaic Idealize.ShloMosaic.ValueIdx

variable {m k n : ℕ}

/-- The matrix product: entry `(a, b)` is `∑ c, X (a, c) * W (c, b)`. -/
def matProd (X : FVec Ideal ⟨2, ![m, k]⟩ .f32) (W : FVec Ideal ⟨2, ![k, n]⟩ .f32) : FVec Ideal ⟨2, ![m, n]⟩ .f32 :=
  fun i => ∑ c : Fin k, X (ix2 (⟨(i 0).val, idx2_lt0 i⟩ : Fin m) c) * W (ix2 c (⟨(i 1).val, idx2_lt1 i⟩ : Fin n))

theorem matProd_apply (X : FVec Ideal ⟨2, ![m, k]⟩ .f32) (W : FVec Ideal ⟨2, ![k, n]⟩ .f32) (a : Fin m) (b : Fin n) :
    matProd X W (ix2 a b) = ∑ c : Fin k, X (ix2 a c) * W (ix2 c b) := rfl

/-- A one-row matrix added to every row: entry `(a, b)` is `A (a, b) + B (0, b)`. -/
def addRow (A : FVec Ideal ⟨2, ![m, n]⟩ .f32) (B : FVec Ideal ⟨2, ![1, n]⟩ .f32) : FVec Ideal ⟨2, ![m, n]⟩ .f32 :=
  fun i => A i + B (ix2 (0 : Fin 1) (⟨(i 1).val, idx2_lt1 i⟩ : Fin n))

theorem addRow_apply (A : FVec Ideal ⟨2, ![m, n]⟩ .f32) (B : FVec Ideal ⟨2, ![1, n]⟩ .f32) (a : Fin m) (b : Fin n) :
    addRow A B (ix2 a b) = A (ix2 a b) + B (ix2 (0 : Fin 1) b) := rfl

/-- The row added, then the rectifier: entry `(a, b)` is `max (A (a, b) + B (0, b)) 0`. -/
def addRowRelu (A : FVec Ideal ⟨2, ![m, n]⟩ .f32) (B : FVec Ideal ⟨2, ![1, n]⟩ .f32) : FVec Ideal ⟨2, ![m, n]⟩ .f32 :=
  fun i => max (addRow A B i) (Ideal.ofBits .f32 0x00000000#32)

theorem addRowRelu_apply (A : FVec Ideal ⟨2, ![m, n]⟩ .f32) (B : FVec Ideal ⟨2, ![1, n]⟩ .f32) (a : Fin m) (b : Fin n) :
    addRowRelu A B (ix2 a b) = max (A (ix2 a b) + B (ix2 (0 : Fin 1) b)) (Ideal.ofBits .f32 0x00000000#32) := rfl

/-! ## The host's forms of the same functions -/

/-- The host's `dot_general` (contracting [1]×[0]) is the matrix product. -/
theorem dotGeneral_eq (w : DotDims.WF ⟨2, ![m, k]⟩ ⟨2, ![k, n]⟩ ⟨2, ![m, n]⟩ [1] [0] [0] [1] [] [])
    (prec : Option ContractPrecision) (X : FVec Ideal ⟨2, ![m, k]⟩ .f32) (W : FVec Ideal ⟨2, ![k, n]⟩ .f32) :
    Host.dotGeneral (⟨[1], [0], [0], [1], [], [], w⟩ : DotDims ⟨2, ![m, k]⟩ ⟨2, ![k, n]⟩ ⟨2, ![m, n]⟩) prec X W = matProd X W := by
  funext i
  obtain ⟨a, b, rfl⟩ : ∃ (a : Fin m) (b : Fin n), i = ix2 a b := ⟨i 0, i 1, eq_ix2 i⟩
  rw [matProd_apply]
  exact Cert.Lib.MatDot.dotGeneral_apply w prec X W a b

/-- The host's sum with a vector laid along every row (the vector made one row, the row laid down the rows) is `addRow` of
    the vector as a one-row matrix. -/
theorem add_rows_eq (h1 : (⟨1, ![n]⟩ : Shape).BroadcastsInDim ⟨2, ![1, n]⟩ ![1])
    (h2 : (⟨2, ![1, n]⟩ : Shape).BroadcastsInDim ⟨2, ![m, n]⟩ ![0, 1]) (hc : (⟨1, ![n]⟩ : Shape).ShapeCasts ⟨2, ![1, n]⟩)
    (A : FVec Ideal ⟨2, ![m, n]⟩ .f32) (x : FVec Ideal ⟨1, ![n]⟩ .f32) :
    addf A (broadcastInDim ⟨2, ![m, n]⟩ ![0, 1] h2 (broadcastInDim ⟨2, ![1, n]⟩ ![1] h1 x)) = addRow A (shapeCast ⟨2, ![1, n]⟩ x hc) := by
  funext i
  obtain ⟨a, b, rfl⟩ : ∃ (a : Fin m) (b : Fin n), i = ix2 a b := ⟨i 0, i 1, eq_ix2 i⟩
  rw [addRow_apply, addf_apply, Cert.Lib.MatDot.broadcastInDim_vec_rows_apply h1 h2 x a b, shapeCast_a_1a_apply x hc 0 b]

/-- The host's rectifier, `maximum` with the zero constant laid over the shape. -/
theorem relu_add_rows_eq (h1 : (⟨1, ![n]⟩ : Shape).BroadcastsInDim ⟨2, ![1, n]⟩ ![1])
    (h2 : (⟨2, ![1, n]⟩ : Shape).BroadcastsInDim ⟨2, ![m, n]⟩ ![0, 1]) (hc : (⟨1, ![n]⟩ : Shape).ShapeCasts ⟨2, ![1, n]⟩)
    (h0 : (⟨0, ![]⟩ : Shape).BroadcastsInDim ⟨2, ![m, n]⟩ ![])
    (A : FVec Ideal ⟨2, ![m, n]⟩ .f32) (x : FVec Ideal ⟨1, ![n]⟩ .f32) :
    maximumf (addf A (broadcastInDim ⟨2, ![m, n]⟩ ![0, 1] h2 (broadcastInDim ⟨2, ![1, n]⟩ ![1] h1 x)))
        (broadcastInDim ⟨2, ![m, n]⟩ ![] h0 (constant (F := Ideal) ⟨0, ![]⟩ .f32 0x00000000#32))
      = addRowRelu A (shapeCast ⟨2, ![1, n]⟩ x hc) := by
  rw [add_rows_eq h1 h2 hc]
  funext i
  show max _ (broadcastInDim ⟨2, ![m, n]⟩ ![] h0 (constant (F := Ideal) ⟨0, ![]⟩ .f32 0x00000000#32) i) = _
  rw [broadcastInDim_scalar_apply]
  rfl

end Cert.Dense

end
-- ==== Proof.RefValue.lean ====
/-
  WHAT THE REFERENCE COMPUTES, as one function of its six arguments. Its run ends with the result at the composed term of
  its 119 host operations; folded by names, that term is two graph-convolution layers:

      h   = relu ( agg16  (x · W1) + b1 )          out = agg128 (h · W2) + b2

  with `·` the host's `dot_general`, `+ b` a vector laid along every row, `relu` the maximum with zero, and `agg` the
  normalized neighbourhood sum (carried as one function, never opened). Entry by entry the dense steps are `matProd`,
  `addRowRelu` and `addRow`.
-/
import proofs.«146971_j83124797047347_1_alg».proof.Proof.RefRun
import proofs.«146971_j83124797047347_1_alg».proof.Proof.AggRef
import proofs.«146971_j83124797047347_1_alg».proof.Proof.LibDenseRows

noncomputable section

namespace Cert.ReferenceIdeal.TwoLayers

open Cert.ReferenceIdeal Cert.ReferenceIdeal.Gen Idealize.ShloMosaic Idealize.ShloMosaic.TcCoe Idealize.SL.Sem

theorem hc16 : (⟨1, ![16]⟩ : Shape).ShapeCasts ⟨2, ![1, 16]⟩ := by decide
theorem hc128 : (⟨1, ![128]⟩ : Shape).ShapeCasts ⟨2, ![1, 128]⟩ := by decide

/-- Two graph-convolution layers: `agg128 (relu (agg16 (x · W1) + b1) · W2) + b2`, the dense steps entry by entry. -/
def twoLayers (x : FVec Ideal S100000x128 .f32) (e : (⟨S2x1600000, .i32⟩ : BufTy).Contents (Elt Ideal))
    (w1 : FVec Ideal S128x16 .f32) (b1 : FVec Ideal S16 .f32) (w2 : FVec Ideal S16x128 .f32) (b2 : FVec Ideal S128 .f32) :
    FVec Ideal S100000x128 .f32 :=
  Cert.Dense.addRow
    (Agg.agg128 (F := Ideal) (Agg.row0 (F := Ideal) e) (Agg.row1 (F := Ideal) e)
      (Cert.Dense.matProd
        (Cert.Dense.addRowRelu
          (Agg.agg16 (F := Ideal) (Agg.row0 (F := Ideal) e) (Agg.row1 (F := Ideal) e) (Cert.Dense.matProd x w1))
          (shapeCast ⟨2, ![1, 16]⟩ b1 hc16))
        w2))
    (shapeCast ⟨2, ![1, 128]⟩ b2 hc128)

/-- The composed term of the reference's operations, with the graph step folded to its name, is `twoLayers`: the host's
    `dot_general`s are matrix products, its sums with a vector laid along the rows are `addRow`, its maximum with zero the rectifier. -/
theorem term_eq (x : FVec Ideal S100000x128 .f32) (e : (⟨S2x1600000, .i32⟩ : BufTy).Contents (Elt Ideal))
    (w1 : FVec Ideal S128x16 .f32) (b1 : FVec Ideal S16 .f32) (w2 : FVec Ideal S16x128 .f32) (b2 : FVec Ideal S128 .f32) :
    addf (F := Ideal) (Agg.agg128 (F := Ideal) (Agg.row0 (F := Ideal) e) (Agg.row1 (F := Ideal) e)
          (Host.dotGeneral (F := Ideal) dot_S100000x16_S16x128_S100000x128_1_0_0_1_n_n none
            (maximumf (F := Ideal) (addf (F := Ideal) (Agg.agg16 (F := Ideal) (Agg.row0 (F := Ideal) e) (Agg.row1 (F := Ideal) e)
                  (Host.dotGeneral (F := Ideal) dot_S100000x128_S128x16_S100000x16_1_0_0_1_n_n none x w1))
                (broadcastInDim S100000x16 ![0, 1] bcast_S1x16_S100000x16_0_1 (broadcastInDim S1x16 ![1] bcast_S16_S1x16_1 b1)))
              (broadcastInDim S100000x16 ![] bcast_S_S100000x16 (constant (F := Ideal) S_ .f32 0x00000000#32)))
            w2))
          (broadcastInDim S100000x128 ![0, 1] bcast_S1x128_S100000x128_0_1 (broadcastInDim S1x128 ![1] bcast_S128_S1x128_1 b2))
      = twoLayers x e w1 b1 w2 b2 := by
  have e1 : Host.dotGeneral (F := Ideal) dot_S100000x128_S128x16_S100000x16_1_0_0_1_n_n none x w1 = Cert.Dense.matProd x w1 :=
    Cert.Dense.dotGeneral_eq _ none x w1
  rw [e1]
  have e2 := Cert.Dense.relu_add_rows_eq bcast_S16_S1x16_1 bcast_S1x16_S100000x16_0_1 hc16 bcast_S_S100000x16
    (Agg.agg16 (F := Ideal) (Agg.row0 (F := Ideal) e) (Agg.row1 (F := Ideal) e) (Cert.Dense.matProd x w1)) b1
  rw [e2]
  have e3 : ∀ hh : FVec Ideal S100000x16 .f32,
      Host.dotGeneral (F := Ideal) dot_S100000x16_S16x128_S100000x128_1_0_0_1_n_n none hh w2 = Cert.Dense.matProd hh w2 :=
    fun hh => Cert.Dense.dotGeneral_eq _ none hh w2
  rw [e3]
  exact Cert.Dense.add_rows_eq bcast_S128_S1x128_1 bcast_S1x128_S100000x128_0_1 hc128 _ b2

/-- The reference's result term is `twoLayers` of the arguments. -/
theorem res_eq (m : (ℓ : Loc nD τ sig) → Buf (Elt Ideal) ℓ) (c : Dev nD) :
    Cert.ReferenceIdeal.RunP.res_main_v90 (F := Ideal) m c
      = twoLayers (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  term_eq (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))

end Cert.ReferenceIdeal.TwoLayers

end
-- ==== Proof.AggKer.lean ====
/-
  The graph step both programs apply on the host, as named functions of the edges' sources `s` and targets `d` (1,600,000
  node numbers each: the two rows of the edge list) and of a node-feature matrix `h`:

    row0 e, row1 e       the two rows of the edge list `e`;
    withLoops s          the 1,600,000 node numbers followed by 0 … 99,999 (one self loop per node);
    wrapIdx i            a negative node number read from the end (i + 100000 where i < 0);
    deg d                the number of edges, self loop included, that END at each node: a scatter-add of ones at the targets;
    dinv d               deg^(-1/2) where deg > 0, and 0 elsewhere;
    norm s d             per edge, dinv at its source times dinv at its target;
    agg16 s d h, agg128 s d h   the scatter-add, at each edge's target, of row `source` of `h` scaled by the edge's `norm`
                          (for feature widths 16 and 128).

  They are spelt with this program's own shapes and dimension records, operation by operation as its @main has them, and
  are never opened again: what goes into them is shown equal, and they are carried as one function.
-/
import proofs.«146971_j83124797047347_1_alg».proof.Proof.Gen.KernelIdeal

noncomputable section

namespace Cert.KernelIdeal.Agg

open Cert.KernelIdeal Cert.KernelIdeal.Gen Idealize.ShloMosaic

variable {F : FTy → Type} [FloatOps F]

/-- Row 0 of the edge list: the edges' sources. -/
def row0 (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000

/-- Row 1 of the edge list: the edges' targets. -/
def row1 (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- The edges' ends, then every node once (its self loop). -/
def withLoops (s : (⟨S1600000, .i32⟩ : BufTy).Contents (Elt F)) : (⟨S1700000, .i32⟩ : BufTy).Contents (Elt F) :=
  concatenate S1700000 0 [⟨S1600000, s⟩, ⟨S100000, (iotaInDim S100000 32 0)⟩] concatenates_S1600000_S100000_S1700000_d0

/-- A negative node number counts from the end: `i + 100000` where `i < 0`, else `i`. -/
def wrapIdx (i : (⟨S1700000, .i32⟩ : BufTy).Contents (Elt F)) : (⟨S1700000, .i32⟩ : BufTy).Contents (Elt F) :=
  select (cmpi .slt i (broadcastInDim S1700000 ![] bcast_S_S1700000 (constantI S_ 32 0#32))) (addi i (broadcastInDim S1700000 ![] bcast_S_S1700000 (constantI S_ 32 100000#32))) i

/-- How many edges (self loop included) end at each node. -/
def deg (d : (⟨S1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 (withLoops (F := F) d)) (broadcastInDim S1700000 ![] bcast_S_S1700000 (constant S_ .f32 0x3F800000#32))

/-- `deg^(-1/2)` where the degree is positive, `0` elsewhere. -/
def dinv (d : (⟨S1600000, .i32⟩ : BufTy).Contents (Elt F)) : (⟨S100000, .f32⟩ : BufTy).Contents (Elt F) :=
  select (cmpf (F := F) .ogt (deg d) (broadcastInDim S100000 ![] bcast_S_S100000 (constant S_ .f32 0x00000000#32))) (Host.rsqrt (deg d)) (broadcastInDim S100000 ![] bcast_S_S100000 (id (constant S_ .f32 0x00000000#32)))

/-- Per edge: `dinv` at its source times `dinv` at its target. -/
def norm (s d : (⟨S1600000, .i32⟩ : BufTy).Contents (Elt F)) : (⟨S1700000, .f32⟩ : BufTy).Contents (Elt F) :=
  mulf (Host.gather gather_S100000_S1700000x1_S1700000_n_0_n_n_0_1_1 (dinv d) (broadcastInDim S1700000x1 ![0] bcast_S1700000_S1700000x1_0 (wrapIdx (F := F) (withLoops (F := F) s)))) (Host.gather gather_S100000_S1700000x1_S1700000_n_0_n_n_0_1_1 (dinv d) (broadcastInDim S1700000x1 ![0] bcast_S1700000_S1700000x1_0 (wrapIdx (F := F) (withLoops (F := F) d))))

/-- The normalized neighbourhood sum of a 16-column feature matrix: at each node, the sum over the edges ending there of the
    source's row times the edge's `norm`. -/
def agg16 (s d : (⟨S1600000, .i32⟩ : BufTy).Contents (Elt F)) (h : (⟨S100000x16, .f32⟩ : BufTy).Contents (Elt F)) : (⟨S100000x16, .f32⟩ : BufTy).Contents (Elt F) :=
  Host.scatterAdd scatter_S100000x16_S1700000x1_S1700000x16_1_0_0_1 (broadcastInDim S100000x16 ![] bcast_S_S100000x16 (constant S_ .f32 0x00000000#32)) (broadcastInDim S1700000x1 ![0] bcast_S1700000_S1700000x1_0 (withLoops (F := F) d)) (mulf (Host.gather gather_S100000x16_S1700000x1_S1700000x16_1_0_n_n_0_1_116 h (broadcastInDim S1700000x1 ![0] bcast_S1700000_S1700000x1_0 (wrapIdx (F := F) (withLoops (F := F) s)))) (broadcastInDim S1700000x16 ![0, 1] bcast_S1700000x1_S1700000x16_0_1 (broadcastInDim S1700000x1 ![0] bcast_S1700000_S1700000x1_0 (norm s d))))

/-- The same for a 128-column feature matrix. -/
def agg128 (s d : (⟨S1600000, .i32⟩ : BufTy).Contents (Elt F)) (h : (⟨S100000x128, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (withLoops (F := F) d)) (mulf (Host.gather gather_S100000x128_S1700000x1_S1700000x128_1_0_n_n_0_1_1128 h (broadcastInDim S1700000x1 ![0] bcast_S1700000_S1700000x1_0 (wrapIdx (F := F) (withLoops (F := F) s)))) (broadcastInDim S1700000x128 ![0, 1] bcast_S1700000x1_S1700000x128_0_1 (broadcastInDim S1700000x1 ![0] bcast_S1700000_S1700000x1_0 (norm s d))))

end Cert.KernelIdeal.Agg

end
-- ==== Proof.AggSame.lean ====
/-
  The graph step is ONE function: the kernel's program and the reference spell it with their own copies of the same shapes
  and dimension records, operation for operation, so the two spellings are equal by unfolding the names — nothing about
  gathers or scatter-adds is used.
-/
import proofs.«146971_j83124797047347_1_alg».proof.Proof.AggKer
import proofs.«146971_j83124797047347_1_alg».proof.Proof.AggRef

noncomputable section

namespace Cert.AggSame

open Idealize.ShloMosaic

variable {F : FTy → Type} [FloatOps F]

/-- The edge list's rows are read alike. -/
theorem row0_eq (e : (⟨Cert.KernelIdeal.S2x1600000, .i32⟩ : BufTy).Contents (Elt F)) :
    Cert.KernelIdeal.Agg.row0 (F := F) e = Cert.ReferenceIdeal.Agg.row0 (F := F) e := rfl

theorem row1_eq (e : (⟨Cert.KernelIdeal.S2x1600000, .i32⟩ : BufTy).Contents (Elt F)) :
    Cert.KernelIdeal.Agg.row1 (F := F) e = Cert.ReferenceIdeal.Agg.row1 (F := F) e := rfl

/-- The 16-column neighbourhood sum of the kernel's program is the reference's. -/
theorem agg16_eq (s d : (⟨Cert.KernelIdeal.S1600000, .i32⟩ : BufTy).Contents (Elt F))
    (h : (⟨Cert.KernelIdeal.S100000x16, .f32⟩ : BufTy).Contents (Elt F)) :
    Cert.KernelIdeal.Agg.agg16 (F := F) s d h = Cert.ReferenceIdeal.Agg.agg16 (F := F) s d h := rfl

/-- The 128-column neighbourhood sum of the kernel's program is the reference's. -/
theorem agg128_eq (s d : (⟨Cert.KernelIdeal.S1600000, .i32⟩ : BufTy).Contents (Elt F))
    (h : (⟨Cert.KernelIdeal.S100000x128, .f32⟩ : BufTy).Contents (Elt F)) :
    Cert.KernelIdeal.Agg.agg128 (F := F) s d h = Cert.ReferenceIdeal.Agg.agg128 (F := F) s d h := rfl

end Cert.AggSame

end
-- ==== Proof.KRun.lean ====
/-
  The kernel's program run to its end, with the RESULT read: @main is four row-blocked kernel launches among stretches of
  host operations; its run goes segment by segment (a stretch of host operations applies them to the buffers' contents, a
  launch leaves its output array at what its grid points wrote back), so the final contents of every buffer are the fold
  `W11` of those steps from the launch memory. The frame theorem keeps only the argument arrays of that final state; here the
  same run is stated with the result array kept as well: it ends at the fold's value at the result's buffer.
-/
import proofs.«146971_j83124797047347_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates, nothing faulting, with the result array at the
    segments' fold of the launch memory and the argument arrays as launched. -/
theorem run_result : θ_run defs (onTc (τ := τ) (main (F := F))) ⟨m, fun _ => 0, ρ⟩ (fun r => ∀ c : Dev nD,
      r.2.mem ((c.tc : Thread nD τ).loc main_v87) = W11 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v87 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c)⟩)

end Cert.KernelIdeal.Result

end
-- ==== Proof.KPay.lean ====
/-
  What each of the kernel's four bodies stores, read at one entry of its row block, on the extended reals (a change of
  float format is the identity there, so the bf16 roundings in front of the matrix unit disappear):

    the two linear bodies   entry (p, q) of the stored block is  ∑ c, x (p, c) · w (c, q)   (the matrix unit into a zero accumulator);
    the bias + rectifier    entry (p, q) is  max (a (p, q) + b (0, q)) 0;
    the bias                entry (p, q) is  a (p, q) + b (0, q).
-/
import proofs.«146971_j83124797047347_1_alg».proof.Proof.Gen.KernelIdeal.Skeleton
import proofs.«146971_j83124797047347_1_alg».proof.Proof.LibDenseRows

noncomputable section

open scoped BigOperators

namespace Cert.KernelIdeal.Pay

open Cert.KernelIdeal Cert.KernelIdeal.Gen Idealize.ShloMosaic Idealize.ShloMosaic.ValueIdx

/-- The first linear body: a 10000×128 block of `x` times the 128×16 weights. -/
theorem lin1 (x0 : Vec Ideal S10000x128 .f32) (x1 : Vec Ideal S128x16 .f32) (p : Fin 10000) (q : Fin 16) :
    k0_pay1 (F := Ideal) x0 x1 (ix2 p q) = ∑ c : Fin 128, x0 (ix2 p c) * x1 (ix2 c q) := by
  unfold k0_pay1
  exact Cert.Lib.MatDot.matmul_zero_apply _ none _ _ p q

/-- The second linear body: a 10000×16 block of the hidden features times the 16×128 weights. -/
theorem lin2 (x0 : Vec Ideal S10000x16 .f32) (x1 : Vec Ideal S16x128 .f32) (p : Fin 10000) (q : Fin 128) :
    k2_pay1 (F := Ideal) x0 x1 (ix2 p q) = ∑ c : Fin 16, x0 (ix2 p c) * x1 (ix2 c q) := by
  unfold k2_pay1
  rw [shapeCast_self]
  exact Cert.Lib.MatDot.matmul_zero_apply _ none _ _ p q

/-- The bias and the rectifier on a 10000×16 block. -/
theorem biasRelu (x0 : Vec Ideal S10000x16 .f32) (x1 : Vec Ideal S1x16 .f32) (p : Fin 10000) (q : Fin 16) :
    k1_pay1 (F := Ideal) x0 x1 (ix2 p q) = max (x0 (ix2 p q) + x1 (ix2 (0 : Fin 1) q)) (Ideal.ofBits .f32 0x00000000#32) := by
  unfold k1_pay1
  rw [shapeCast_self, shapeCast_self]
  show max (x0 (ix2 p q) + broadcastTo S10000x16 x1 _ (ix2 p q)) _ = _
  rw [broadcastTo_1b_ab_apply]
  rfl

/-- The bias on a 10000×128 block. -/
theorem bias (x0 : Vec Ideal S10000x128 .f32) (x1 : Vec Ideal S1x128 .f32) (p : Fin 10000) (q : Fin 128) :
    k3_pay1 (F := Ideal) x0 x1 (ix2 p q) = x0 (ix2 p q) + x1 (ix2 (0 : Fin 1) q) := by
  unfold k3_pay1
  rw [shapeCast_self, shapeCast_self]
  show x0 (ix2 p q) + broadcastTo S10000x128 x1 _ (ix2 p q) = _
  rw [broadcastTo_1b_ab_apply]

end Cert.KernelIdeal.Pay

end
-- ==== Proof.KBlocks0.lean ====
/-
  KERNEL LAUNCH 0, from row blocks to the whole array. The launch walks the 100000 rows in ten blocks of 10000: at grid point
  `t` it reads rows 10000·t … 10000·t + 9999 of its first operand and the whole of its second, and writes back the same rows
  of its output. What point `t` writes back is block `t` of ONE function of the two operand arrays (the body's stored value
  read entry by entry, each entry of a block being an entry of the array at row 10000·t + p), and the ten blocks tile the
  output array, so after the launch the output array IS that function of the operands as the launch found them.
-/
import proofs.«146971_j83124797047347_1_alg».proof.Proof.Gen.KernelIdeal.Frame
import proofs.«146971_j83124797047347_1_alg».proof.Proof.KPay
import Idealize.ShloMosaic.Lib.Pipeline.Value

set_option maxRecDepth 16384

noncomputable section

open scoped BigOperators

namespace Cert.KernelIdeal.Blocks0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed block-index maps over the grid: the row-blocked windows are at block `(t, 0)`, the second operand at `(0, 0)`. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the matrix product of the operand arrays. -/
theorem flushed (c : Dev nD) (t : Fin cfg0.N) :
    (dat0 V c).flushed 2 t = ((cfg0.win 2).blk t).view.read (Elt Ideal)
      (Cert.Dense.matProd (V c main_arg0 : S100000x128.Idx → EReal) (V c main_arg2 : S128x16.Idx → EReal)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x16) hz]
  have hN : t.val < 10 := by have h1 := t.isLt; have h2 : cfg0.N = 10 := N_0; omega
  obtain ⟨e00, e01, e10, e11, e20, e21⟩ := idx t
  funext y
  obtain ⟨p, q, rfl⟩ : ∃ (p : Fin 10000) (q : Fin 16), y = ix2 p q := ⟨y 0, y 1, eq_ix2 y⟩
  refine (Cert.KernelIdeal.Pay.lin1 _ _ p q).trans ?_
  have hemb : ((cfg0.win 2).blk t).view.emb (ix2 p q) = ix2 (⟨10000 * t.val + p.val, by omega⟩ : Fin 100000) q := by
    funext a; apply Fin.ext
    match a with
    | ⟨0, _⟩ => show win0_2.index t (0 : Fin 2) * 10000 + 1 * p.val = 10000 * t.val + p.val; rw [e20]; omega
    | ⟨1, _⟩ => show win0_2.index t (1 : Fin 2) * 16 + 1 * q.val = q.val; rw [e21]; omega
  show _ = Cert.Dense.matProd _ _ (((cfg0.win 2).blk t).view.emb (ix2 p q))
  rw [hemb, Cert.Dense.matProd_apply]
  refine Finset.sum_congr rfl fun c' _ => ?_
  have h0 : iblk0 V c 0 t (ix2 p c') = (V c main_arg0 : S100000x128.Idx → EReal) (ix2 (⟨10000 * t.val + p.val, by omega⟩ : Fin 100000) c') := by
    show (V c main_arg0 : S100000x128.Idx → EReal) (((cfg0.win 0).blk t).view.emb (ix2 p c')) = _
    refine congrArg (V c main_arg0 : S100000x128.Idx → EReal) ?_
    funext a; apply Fin.ext
    match a with
    | ⟨0, _⟩ => show win0_0.index t (0 : Fin 2) * 10000 + 1 * p.val = 10000 * t.val + p.val; rw [e00]; omega
    | ⟨1, _⟩ => show win0_0.index t (1 : Fin 2) * 128 + 1 * c'.val = c'.val; rw [e01]; omega
  have h1 : iblk0 V c 1 t (ix2 c' q) = (V c main_arg2 : S128x16.Idx → EReal) (ix2 c' q) := by
    show (V c main_arg2 : S128x16.Idx → EReal) (((cfg0.win 1).blk t).view.emb (ix2 c' q)) = _
    refine congrArg (V c main_arg2 : S128x16.Idx → EReal) ?_
    funext a; apply Fin.ext
    match a with
    | ⟨0, _⟩ => show win0_1.index t (0 : Fin 2) * 128 + 1 * c'.val = c'.val; rw [e10]; omega
    | ⟨1, _⟩ => show win0_1.index t (1 : Fin 2) * 16 + 1 * q.val = q.val; rw [e11]; omega
  rw [h0, h1]

/-- An index of the output array is in point `t`'s block iff each coordinate is in the block's range on its axis. -/
theorem mem_blk (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v4).slice (win0_2.rect t)).set ↔ _
  rw [View.set_slice_whole, Rect.mem_set_unit]
  exact Iff.rfl

/-- The ten row blocks tile the output array: row `r` is in the block of point `r / 10000`. -/
theorem cover (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  let t : Fin cfg0.N := ⟨(i 0).val / 10000, by have h2 : cfg0.N = 10 := N_0; omega⟩
  obtain ⟨e00, e01, e10, e11, e20, e21⟩ := idx t
  have ht : t.val = (i 0).val / 10000 := rfl
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; rw [e20, ht]; omega
  | ⟨1, _⟩ => show win0_2.index t (1 : Fin 2) * 16 ≤ (i 1).val ∧ (i 1).val < win0_2.index t (1 : Fin 2) * 16 + 16; rw [e21]; omega

/-- THE OUTPUT ARRAY after the launch: the matrix product of the operand arrays as the launch found them. -/
theorem final (c : Dev nD) : (dat0 V c).arrAt 2 cfg0.N
    = Cert.Dense.matProd (V c main_arg0 : S100000x128.Idx → EReal) (V c main_arg2 : S128x16.Idx → EReal) :=
  (dat0 V c).arrAt_eq_of_cover 2 _ (fun t _ => flushed V c t) cover

end Cert.KernelIdeal.Blocks0

end
-- ==== Proof.KBlocks1.lean ====
/-
  KERNEL LAUNCH 1, from row blocks to the whole array. The launch walks the 100000 rows in ten blocks of 10000: at grid point
  `t` it reads rows 10000·t … 10000·t + 9999 of its first operand and the whole of its second, and writes back the same rows
  of its output. What point `t` writes back is block `t` of ONE function of the two operand arrays (the body's stored value
  read entry by entry, each entry of a block being an entry of the array at row 10000·t + p), and the ten blocks tile the
  output array, so after the launch the output array IS that function of the operands as the launch found them.
-/
import proofs.«146971_j83124797047347_1_alg».proof.Proof.Gen.KernelIdeal.Frame
import proofs.«146971_j83124797047347_1_alg».proof.Proof.KPay
import Idealize.ShloMosaic.Lib.Pipeline.Value

set_option maxRecDepth 16384

noncomputable section

open scoped BigOperators

namespace Cert.KernelIdeal.Blocks1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed block-index maps over the grid: the row-blocked windows are at block `(t, 0)`, the second operand at `(0, 0)`. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT `t` WRITES BACK is block `t` of the row sum followed by the rectifier of the operand arrays. -/
theorem flushed (c : Dev nD) (t : Fin cfg1.N) :
    (dat1 V c).flushed 2 t = ((cfg1.win 2).blk t).view.read (Elt Ideal)
      (Cert.Dense.addRowRelu (V c main_v43 : S100000x16.Idx → EReal) (V c main_v44 : S1x16.Idx → EReal)) := by
  show (cfg1.win 2).cut (grid1.coords t) ((dat1 V c).after 2 t) = _
  rw [after1_2]
  unfold out1_2
  rw [View.canon_unit_zero hz]
  simp only [View.ld_unit_zero (S := S10000x16) hz, View.ld_unit_zero (S := S1x16) hz]
  have hN : t.val < 10 := by have h1 := t.isLt; have h2 : cfg1.N = 10 := N_1; omega
  obtain ⟨e00, e01, e10, e11, e20, e21⟩ := idx t
  funext y
  obtain ⟨p, q, rfl⟩ : ∃ (p : Fin 10000) (q : Fin 16), y = ix2 p q := ⟨y 0, y 1, eq_ix2 y⟩
  refine (Cert.KernelIdeal.Pay.biasRelu _ _ p q).trans ?_
  have hemb : ((cfg1.win 2).blk t).view.emb (ix2 p q) = ix2 (⟨10000 * t.val + p.val, by omega⟩ : Fin 100000) q := by
    funext a; apply Fin.ext
    match a with
    | ⟨0, _⟩ => show win1_2.index t (0 : Fin 2) * 10000 + 1 * p.val = 10000 * t.val + p.val; rw [e20]; omega
    | ⟨1, _⟩ => show win1_2.index t (1 : Fin 2) * 16 + 1 * q.val = q.val; rw [e21]; omega
  show _ = Cert.Dense.addRowRelu _ _ (((cfg1.win 2).blk t).view.emb (ix2 p q))
  rw [hemb, Cert.Dense.addRowRelu_apply]
  have h0 : iblk1 V c 0 t (ix2 p q) = (V c main_v43 : S100000x16.Idx → EReal) (ix2 (⟨10000 * t.val + p.val, by omega⟩ : Fin 100000) q) := by
    show (V c main_v43 : S100000x16.Idx → EReal) (((cfg1.win 0).blk t).view.emb (ix2 p q)) = _
    refine congrArg (V c main_v43 : S100000x16.Idx → EReal) ?_
    funext a; apply Fin.ext
    match a with
    | ⟨0, _⟩ => show win1_0.index t (0 : Fin 2) * 10000 + 1 * p.val = 10000 * t.val + p.val; rw [e00]; omega
    | ⟨1, _⟩ => show win1_0.index t (1 : Fin 2) * 16 + 1 * q.val = q.val; rw [e01]; omega
  have h1 : iblk1 V c 1 t (ix2 (0 : Fin 1) q) = (V c main_v44 : S1x16.Idx → EReal) (ix2 (0 : Fin 1) q) := by
    show (V c main_v44 : S1x16.Idx → EReal) (((cfg1.win 1).blk t).view.emb (ix2 (0 : Fin 1) q)) = _
    refine congrArg (V c main_v44 : S1x16.Idx → EReal) ?_
    funext a; apply Fin.ext
    match a with
    | ⟨0, _⟩ => show win1_1.index t (0 : Fin 2) * 1 + 1 * 0 = 0; rw [e10]
    | ⟨1, _⟩ => show win1_1.index t (1 : Fin 2) * 16 + 1 * q.val = q.val; rw [e11]; omega
  rw [h0, h1]

/-- An index of the output array is in point `t`'s block iff each coordinate is in the block's range on its axis. -/
theorem mem_blk (t : Fin cfg1.N) (i : S100000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole main_v45).slice (win1_2.rect t)).set ↔ _
  rw [View.set_slice_whole, Rect.mem_set_unit]
  exact Iff.rfl

/-- The ten row blocks tile the output array: row `r` is in the block of point `r / 10000`. -/
theorem cover (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  let t : Fin cfg1.N := ⟨(i 0).val / 10000, by have h2 : cfg1.N = 10 := N_1; omega⟩
  obtain ⟨e00, e01, e10, e11, e20, e21⟩ := idx t
  have ht : t.val = (i 0).val / 10000 := rfl
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; rw [e20, ht]; omega
  | ⟨1, _⟩ => show win1_2.index t (1 : Fin 2) * 16 ≤ (i 1).val ∧ (i 1).val < win1_2.index t (1 : Fin 2) * 16 + 16; rw [e21]; omega

/-- THE OUTPUT ARRAY after the launch: the row sum followed by the rectifier of the operand arrays as the launch found them. -/
theorem final (c : Dev nD) : (dat1 V c).arrAt 2 cfg1.N
    = Cert.Dense.addRowRelu (V c main_v43 : S100000x16.Idx → EReal) (V c main_v44 : S1x16.Idx → EReal) :=
  (dat1 V c).arrAt_eq_of_cover 2 _ (fun t _ => flushed V c t) cover

end Cert.KernelIdeal.Blocks1

end
-- ==== Proof.KBlocks2.lean ====
/-
  KERNEL LAUNCH 2, from row blocks to the whole array. The launch walks the 100000 rows in ten blocks of 10000: at grid point
  `t` it reads rows 10000·t … 10000·t + 9999 of its first operand and the whole of its second, and writes back the same rows
  of its output. What point `t` writes back is block `t` of ONE function of the two operand arrays (the body's stored value
  read entry by entry, each entry of a block being an entry of the array at row 10000·t + p), and the ten blocks tile the
  output array, so after the launch the output array IS that function of the operands as the launch found them.
-/
import proofs.«146971_j83124797047347_1_alg».proof.Proof.Gen.KernelIdeal.Frame
import proofs.«146971_j83124797047347_1_alg».proof.Proof.KPay
import Idealize.ShloMosaic.Lib.Pipeline.Value

set_option maxRecDepth 16384

noncomputable section

open scoped BigOperators

namespace Cert.KernelIdeal.Blocks2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed block-index maps over the grid: the row-blocked windows are at block `(t, 0)`, the second operand at `(0, 0)`. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- WHAT POINT `t` WRITES BACK is block `t` of the matrix product of the operand arrays. -/
theorem flushed (c : Dev nD) (t : Fin cfg2.N) :
    (dat2 V c).flushed 2 t = ((cfg2.win 2).blk t).view.read (Elt Ideal)
      (Cert.Dense.matProd (V c main_v45 : S100000x16.Idx → EReal) (V c main_arg4 : S16x128.Idx → EReal)) := by
  show (cfg2.win 2).cut (grid2.coords t) ((dat2 V c).after 2 t) = _
  rw [after2_2]
  unfold out2_2
  rw [View.canon_unit_zero hz]
  simp only [View.ld_unit_zero (S := S10000x16) hz, View.ld_unit_zero (S := S16x128) hz]
  have hN : t.val < 10 := by have h1 := t.isLt; have h2 : cfg2.N = 10 := N_2; omega
  obtain ⟨e00, e01, e10, e11, e20, e21⟩ := idx t
  funext y
  obtain ⟨p, q, rfl⟩ : ∃ (p : Fin 10000) (q : Fin 128), y = ix2 p q := ⟨y 0, y 1, eq_ix2 y⟩
  refine (Cert.KernelIdeal.Pay.lin2 _ _ p q).trans ?_
  have hemb : ((cfg2.win 2).blk t).view.emb (ix2 p q) = ix2 (⟨10000 * t.val + p.val, by omega⟩ : Fin 100000) q := by
    funext a; apply Fin.ext
    match a with
    | ⟨0, _⟩ => show win2_2.index t (0 : Fin 2) * 10000 + 1 * p.val = 10000 * t.val + p.val; rw [e20]; omega
    | ⟨1, _⟩ => show win2_2.index t (1 : Fin 2) * 128 + 1 * q.val = q.val; rw [e21]; omega
  show _ = Cert.Dense.matProd _ _ (((cfg2.win 2).blk t).view.emb (ix2 p q))
  rw [hemb, Cert.Dense.matProd_apply]
  refine Finset.sum_congr rfl fun c' _ => ?_
  have h0 : iblk2 V c 0 t (ix2 p c') = (V c main_v45 : S100000x16.Idx → EReal) (ix2 (⟨10000 * t.val + p.val, by omega⟩ : Fin 100000) c') := by
    show (V c main_v45 : S100000x16.Idx → EReal) (((cfg2.win 0).blk t).view.emb (ix2 p c')) = _
    refine congrArg (V c main_v45 : S100000x16.Idx → EReal) ?_
    funext a; apply Fin.ext
    match a with
    | ⟨0, _⟩ => show win2_0.index t (0 : Fin 2) * 10000 + 1 * p.val = 10000 * t.val + p.val; rw [e00]; omega
    | ⟨1, _⟩ => show win2_0.index t (1 : Fin 2) * 16 + 1 * c'.val = c'.val; rw [e01]; omega
  have h1 : iblk2 V c 1 t (ix2 c' q) = (V c main_arg4 : S16x128.Idx → EReal) (ix2 c' q) := by
    show (V c main_arg4 : S16x128.Idx → EReal) (((cfg2.win 1).blk t).view.emb (ix2 c' q)) = _
    refine congrArg (V c main_arg4 : S16x128.Idx → EReal) ?_
    funext a; apply Fin.ext
    match a with
    | ⟨0, _⟩ => show win2_1.index t (0 : Fin 2) * 16 + 1 * c'.val = c'.val; rw [e10]; omega
    | ⟨1, _⟩ => show win2_1.index t (1 : Fin 2) * 128 + 1 * q.val = q.val; rw [e11]; omega
  rw [h0, h1]

/-- An index of the output array is in point `t`'s block iff each coordinate is in the block's range on its axis. -/
theorem mem_blk (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v46).slice (win2_2.rect t)).set ↔ _
  rw [View.set_slice_whole, Rect.mem_set_unit]
  exact Iff.rfl

/-- The ten row blocks tile the output array: row `r` is in the block of point `r / 10000`. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  let t : Fin cfg2.N := ⟨(i 0).val / 10000, by have h2 : cfg2.N = 10 := N_2; omega⟩
  obtain ⟨e00, e01, e10, e11, e20, e21⟩ := idx t
  have ht : t.val = (i 0).val / 10000 := rfl
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; rw [e20, ht]; omega
  | ⟨1, _⟩ => show win2_2.index t (1 : Fin 2) * 128 ≤ (i 1).val ∧ (i 1).val < win2_2.index t (1 : Fin 2) * 128 + 128; rw [e21]; omega

/-- THE OUTPUT ARRAY after the launch: the matrix product of the operand arrays as the launch found them. -/
theorem final (c : Dev nD) : (dat2 V c).arrAt 2 cfg2.N
    = Cert.Dense.matProd (V c main_v45 : S100000x16.Idx → EReal) (V c main_arg4 : S16x128.Idx → EReal) :=
  (dat2 V c).arrAt_eq_of_cover 2 _ (fun t _ => flushed V c t) cover

end Cert.KernelIdeal.Blocks2

end
-- ==== Proof.KBlocks3.lean ====
/-
  KERNEL LAUNCH 3, from row blocks to the whole array. The launch walks the 100000 rows in ten blocks of 10000: at grid point
  `t` it reads rows 10000·t … 10000·t + 9999 of its first operand and the whole of its second, and writes back the same rows
  of its output. What point `t` writes back is block `t` of ONE function of the two operand arrays (the body's stored value
  read entry by entry, each entry of a block being an entry of the array at row 10000·t + p), and the ten blocks tile the
  output array, so after the launch the output array IS that function of the operands as the launch found them.
-/
import proofs.«146971_j83124797047347_1_alg».proof.Proof.Gen.KernelIdeal.Frame
import proofs.«146971_j83124797047347_1_alg».proof.Proof.KPay
import Idealize.ShloMosaic.Lib.Pipeline.Value

set_option maxRecDepth 16384

noncomputable section

open scoped BigOperators

namespace Cert.KernelIdeal.Blocks3

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed block-index maps over the grid: the row-blocked windows are at block `(t, 0)`, the second operand at `(0, 0)`. -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- WHAT POINT `t` WRITES BACK is block `t` of the row sum of the operand arrays. -/
theorem flushed (c : Dev nD) (t : Fin cfg3.N) :
    (dat3 V c).flushed 2 t = ((cfg3.win 2).blk t).view.read (Elt Ideal)
      (Cert.Dense.addRow (V c main_v85 : S100000x128.Idx → EReal) (V c main_v86 : S1x128.Idx → EReal)) := by
  show (cfg3.win 2).cut (grid3.coords t) ((dat3 V c).after 2 t) = _
  rw [after3_2]
  unfold out3_2
  rw [View.canon_unit_zero hz]
  simp only [View.ld_unit_zero (S := S10000x128) hz, View.ld_unit_zero (S := S1x128) hz]
  have hN : t.val < 10 := by have h1 := t.isLt; have h2 : cfg3.N = 10 := N_3; omega
  obtain ⟨e00, e01, e10, e11, e20, e21⟩ := idx t
  funext y
  obtain ⟨p, q, rfl⟩ : ∃ (p : Fin 10000) (q : Fin 128), y = ix2 p q := ⟨y 0, y 1, eq_ix2 y⟩
  refine (Cert.KernelIdeal.Pay.bias _ _ p q).trans ?_
  have hemb : ((cfg3.win 2).blk t).view.emb (ix2 p q) = ix2 (⟨10000 * t.val + p.val, by omega⟩ : Fin 100000) q := by
    funext a; apply Fin.ext
    match a with
    | ⟨0, _⟩ => show win3_2.index t (0 : Fin 2) * 10000 + 1 * p.val = 10000 * t.val + p.val; rw [e20]; omega
    | ⟨1, _⟩ => show win3_2.index t (1 : Fin 2) * 128 + 1 * q.val = q.val; rw [e21]; omega
  show _ = Cert.Dense.addRow _ _ (((cfg3.win 2).blk t).view.emb (ix2 p q))
  rw [hemb, Cert.Dense.addRow_apply]
  have h0 : iblk3 V c 0 t (ix2 p q) = (V c main_v85 : S100000x128.Idx → EReal) (ix2 (⟨10000 * t.val + p.val, by omega⟩ : Fin 100000) q) := by
    show (V c main_v85 : S100000x128.Idx → EReal) (((cfg3.win 0).blk t).view.emb (ix2 p q)) = _
    refine congrArg (V c main_v85 : S100000x128.Idx → EReal) ?_
    funext a; apply Fin.ext
    match a with
    | ⟨0, _⟩ => show win3_0.index t (0 : Fin 2) * 10000 + 1 * p.val = 10000 * t.val + p.val; rw [e00]; omega
    | ⟨1, _⟩ => show win3_0.index t (1 : Fin 2) * 128 + 1 * q.val = q.val; rw [e01]; omega
  have h1 : iblk3 V c 1 t (ix2 (0 : Fin 1) q) = (V c main_v86 : S1x128.Idx → EReal) (ix2 (0 : Fin 1) q) := by
    show (V c main_v86 : S1x128.Idx → EReal) (((cfg3.win 1).blk t).view.emb (ix2 (0 : Fin 1) q)) = _
    refine congrArg (V c main_v86 : S1x128.Idx → EReal) ?_
    funext a; apply Fin.ext
    match a with
    | ⟨0, _⟩ => show win3_1.index t (0 : Fin 2) * 1 + 1 * 0 = 0; rw [e10]
    | ⟨1, _⟩ => show win3_1.index t (1 : Fin 2) * 128 + 1 * q.val = q.val; rw [e11]; omega
  rw [h0, h1]

/-- An index of the output array is in point `t`'s block iff each coordinate is in the block's range on its axis. -/
theorem mem_blk (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v87).slice (win3_2.rect t)).set ↔ _
  rw [View.set_slice_whole, Rect.mem_set_unit]
  exact Iff.rfl

/-- The ten row blocks tile the output array: row `r` is in the block of point `r / 10000`. -/
theorem cover (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  let t : Fin cfg3.N := ⟨(i 0).val / 10000, by have h2 : cfg3.N = 10 := N_3; omega⟩
  obtain ⟨e00, e01, e10, e11, e20, e21⟩ := idx t
  have ht : t.val = (i 0).val / 10000 := rfl
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; rw [e20, ht]; omega
  | ⟨1, _⟩ => show win3_2.index t (1 : Fin 2) * 128 ≤ (i 1).val ∧ (i 1).val < win3_2.index t (1 : Fin 2) * 128 + 128; rw [e21]; omega

/-- THE OUTPUT ARRAY after the launch: the row sum of the operand arrays as the launch found them. -/
theorem final (c : Dev nD) : (dat3 V c).arrAt 2 cfg3.N
    = Cert.Dense.addRow (V c main_v85 : S100000x128.Idx → EReal) (V c main_v86 : S1x128.Idx → EReal) :=
  (dat3 V c).arrAt_eq_of_cover 2 _ (fun t _ => flushed V c t) cover

end Cert.KernelIdeal.Blocks3

end
-- ==== Proof.KFold.lean ====
/-
  THE KERNEL'S RESULT, as one function of its six arguments. The run's final contents are a fold through @main's segments
  from the launch memory; here the fold is walked once, buffer by buffer:

    before launch 0   the two rows of the edge list are cut out (`row0`, `row1`); the arguments are untouched;
    launch 0          leaves  x · W1  (the matrix product, Blocks0);
    host stretch      the normalized neighbourhood sum `agg16` of it, and the bias `b1` as a one-row matrix;
    launch 1          adds the bias row and applies the rectifier (Blocks1);
    launch 2          multiplies by W2 (Blocks2);
    host stretch      `agg128` of that, and the bias `b2` as a one-row matrix;
    launch 3          adds the bias row (Blocks3): the result.

  A buffer no operation of a stretch writes, and no array of a launch, keeps its contents across it; the graph step is carried
  as the named function of AggKer, never opened.
-/
import proofs.«146971_j83124797047347_1_alg».proof.Proof.Gen.KernelIdeal.Frame
import proofs.«146971_j83124797047347_1_alg».proof.Proof.AggKer
import proofs.«146971_j83124797047347_1_alg».proof.Proof.KBlocks0
import proofs.«146971_j83124797047347_1_alg».proof.Proof.KBlocks1
import proofs.«146971_j83124797047347_1_alg».proof.Proof.KBlocks2
import proofs.«146971_j83124797047347_1_alg».proof.Proof.KBlocks3
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

/-! ## Reading a stretch of host operations

A stretch's fold at one buffer is computed operation by operation (each operation's result at its own buffer is its function
of its operands' contents, and at any other buffer what was there). The two calls of `where` carry their values through
the callee's own buffers, whose contents are carried to the buffer's declared type and back: these transports are the
identity. -/

/-- Reads left inside a `concatenate`'s operand list, resolved one operation at a time. -/
macro "residual_reads" : tactic =>
  `(tactic| repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)))

/-- Contents carried to a buffer's own type and back are the contents. -/
theorem ofBuf_toBuf {Val : EltTy → Type} {T : BufTy} (x : TRef sig T) (v : T.Contents Val) : x.ofBuf (x.toBuf v) = v := by
  unfold TRef.ofBuf TRef.toBuf; simp

theorem toBuf_v15 {Val : EltTy → Type} (p1 : main_v15.ty = ⟨S100000, .f32⟩) (p2 : main_v15.space ≠ .host) (p3 : main_v15.isScoped = false)
    (v : (⟨S100000, .f32⟩ : BufTy).Contents Val) : (TRef.of (sig := sig) main_v15 p1 p2 p3).toBuf v = v := rfl
theorem ofBuf_v13 {Val : EltTy → Type} (p1 : main_v13.ty = ⟨S100000, .i1⟩) (p2 : main_v13.space ≠ .host) (p3 : main_v13.isScoped = false)
    (v : (⟨S100000, .i1⟩ : BufTy).Contents Val) : (TRef.of (sig := sig) main_v13 p1 p2 p3).ofBuf v = v := rfl
theorem ofBuf_v14 {Val : EltTy → Type} (p1 : main_v14.ty = ⟨S100000, .f32⟩) (p2 : main_v14.space ≠ .host) (p3 : main_v14.isScoped = false)
    (v : (⟨S100000, .f32⟩ : BufTy).Contents Val) : (TRef.of (sig := sig) main_v14 p1 p2 p3).ofBuf v = v := rfl
theorem ofBuf_cst2 {Val : EltTy → Type} (p1 : main_cst_2.ty = ⟨S_, .f32⟩) (p2 : main_cst_2.space ≠ .host) (p3 : main_cst_2.isScoped = false)
    (v : (⟨S_, .f32⟩ : BufTy).Contents Val) : (TRef.of (sig := sig) main_cst_2 p1 p2 p3).ofBuf v = v := rfl
theorem toBuf_v57 {Val : EltTy → Type} (p1 : main_v57.ty = ⟨S100000, .f32⟩) (p2 : main_v57.space ≠ .host) (p3 : main_v57.isScoped = false)
    (v : (⟨S100000, .f32⟩ : BufTy).Contents Val) : (TRef.of (sig := sig) main_v57 p1 p2 p3).toBuf v = v := rfl
theorem ofBuf_v55 {Val : EltTy → Type} (p1 : main_v55.ty = ⟨S100000, .i1⟩) (p2 : main_v55.space ≠ .host) (p3 : main_v55.isScoped = false)
    (v : (⟨S100000, .i1⟩ : BufTy).Contents Val) : (TRef.of (sig := sig) main_v55 p1 p2 p3).ofBuf v = v := rfl
theorem ofBuf_v56 {Val : EltTy → Type} (p1 : main_v56.ty = ⟨S100000, .f32⟩) (p2 : main_v56.space ≠ .host) (p3 : main_v56.isScoped = false)
    (v : (⟨S100000, .f32⟩ : BufTy).Contents Val) : (TRef.of (sig := sig) main_v56 p1 p2 p3).ofBuf v = v := rfl
theorem ofBuf_cst12 {Val : EltTy → Type} (p1 : main_cst_12.ty = ⟨S_, .f32⟩) (p2 : main_cst_12.space ≠ .host) (p3 : main_cst_12.isScoped = false)
    (v : (⟨S_, .f32⟩ : BufTy).Contents Val) : (TRef.of (sig := sig) main_cst_12 p1 p2 p3).ofBuf v = v := rfl

/-- One buffer after a stretch: the operations' results composed, the transports removed, the graph step's names unfolded. -/
macro "host_value" : tactic =>
  `(tactic| (after_results_simp <;>
      (residual_reads
       try simp only [ofBuf_toBuf, toBuf_v15, ofBuf_v13, ofBuf_v14, ofBuf_cst2, toBuf_v57, ofBuf_v55, ofBuf_v56, ofBuf_cst12]
       rfl)))

variable (m : (ℓ : Loc nD τ sig) → Buf (Elt Ideal) ℓ) (ρ : Dev nD → PrngReg) (c : Dev nD)

/-! ## Before launch 0: the edge list's rows are cut out, the arguments untouched -/

theorem W1_v1 : W1 m ρ c (Proc.devRef .tc main_v1) = Agg.row0 (F := Ideal) (m ((c : Thread nD τ).loc main_arg1)) := by
  show StableHlo.after hostOps0 (W0 m ρ c) (Proc.devRef .tc main_v1) = _
  after_results <;> rfl
theorem W1_v3 : W1 m ρ c (Proc.devRef .tc main_v3) = Agg.row1 (F := Ideal) (m ((c : Thread nD τ).loc main_arg1)) := by
  show StableHlo.after hostOps0 (W0 m ρ c) (Proc.devRef .tc main_v3) = _
  after_results <;> rfl
theorem W1_arg0 : W1 m ρ c (Proc.devRef .tc main_arg0) = m ((c : Thread nD τ).loc main_arg0) := by
  show StableHlo.after hostOps0 (W0 m ρ c) (Proc.devRef .tc main_arg0) = _
  after_results <;> rfl
theorem W1_arg2 : W1 m ρ c (Proc.devRef .tc main_arg2) = m ((c : Thread nD τ).loc main_arg2) := by
  show StableHlo.after hostOps0 (W0 m ρ c) (Proc.devRef .tc main_arg2) = _
  after_results <;> rfl
theorem W1_arg3 : W1 m ρ c (Proc.devRef .tc main_arg3) = m ((c : Thread nD τ).loc main_arg3) := by
  show StableHlo.after hostOps0 (W0 m ρ c) (Proc.devRef .tc main_arg3) = _
  after_results <;> rfl
theorem W1_arg4 : W1 m ρ c (Proc.devRef .tc main_arg4) = m ((c : Thread nD τ).loc main_arg4) := by
  show StableHlo.after hostOps0 (W0 m ρ c) (Proc.devRef .tc main_arg4) = _
  after_results <;> rfl
theorem W1_arg5 : W1 m ρ c (Proc.devRef .tc main_arg5) = m ((c : Thread nD τ).loc main_arg5) := by
  show StableHlo.after hostOps0 (W0 m ρ c) (Proc.devRef .tc main_arg5) = _
  after_results <;> rfl

/-! ## Launch 0: x · W1 -/

theorem W2_v4 : W2 m ρ c (Proc.devRef .tc main_v4)
    = Cert.Dense.matProd (m ((c : Thread nD τ).loc main_arg0) : S100000x128.Idx → EReal) (m ((c : Thread nD τ).loc main_arg2) : S128x16.Idx → EReal) := by
  refine (W2_arr m ρ c 2).trans ((Blocks0.final (V1 m ρ) c).trans ?_)
  show Cert.Dense.matProd (W1 m ρ c (Proc.devRef .tc main_arg0) : S100000x128.Idx → EReal) (W1 m ρ c (Proc.devRef .tc main_arg2) : S128x16.Idx → EReal) = _
  rw [W1_arg0, W1_arg2]
theorem W2_v1 : W2 m ρ c (Proc.devRef .tc main_v1) = Agg.row0 (F := Ideal) (m ((c : Thread nD τ).loc main_arg1)) :=
  (W2_of_ne m ρ c main_v1 (by decide)).trans (W1_v1 m ρ c)
theorem W2_v3 : W2 m ρ c (Proc.devRef .tc main_v3) = Agg.row1 (F := Ideal) (m ((c : Thread nD τ).loc main_arg1)) :=
  (W2_of_ne m ρ c main_v3 (by decide)).trans (W1_v3 m ρ c)
theorem W2_arg3 : W2 m ρ c (Proc.devRef .tc main_arg3) = m ((c : Thread nD τ).loc main_arg3) :=
  (W2_of_ne m ρ c main_arg3 (by decide)).trans (W1_arg3 m ρ c)
theorem W2_arg4 : W2 m ρ c (Proc.devRef .tc main_arg4) = m ((c : Thread nD τ).loc main_arg4) :=
  (W2_of_ne m ρ c main_arg4 (by decide)).trans (W1_arg4 m ρ c)
theorem W2_arg5 : W2 m ρ c (Proc.devRef .tc main_arg5) = m ((c : Thread nD τ).loc main_arg5) :=
  (W2_of_ne m ρ c main_arg5 (by decide)).trans (W1_arg5 m ρ c)

/-! ## The host stretch before launch 1: the neighbourhood sum and the bias row -/

theorem W5_v43 : W5 m ρ c (Proc.devRef .tc main_v43)
    = Agg.agg16 (F := Ideal) (W2 m ρ c (Proc.devRef .tc main_v1)) (W2 m ρ c (Proc.devRef .tc main_v3)) (W2 m ρ c (Proc.devRef .tc main_v4)) := by
  show StableHlo.after hostOps1_2 (StableHlo.after hostOps1_1 (StableHlo.after hostOps1 (W2 m ρ c))) (Proc.devRef .tc main_v43) = _
  generalize W2 m ρ c = Wb
  host_value
theorem W5_v44 : W5 m ρ c (Proc.devRef .tc main_v44) = shapeCast S1x16 (W2 m ρ c (Proc.devRef .tc main_arg3)) shapeCasts_S16_S1x16 := by
  show StableHlo.after hostOps1_2 (StableHlo.after hostOps1_1 (StableHlo.after hostOps1 (W2 m ρ c))) (Proc.devRef .tc main_v44) = _
  generalize W2 m ρ c = Wb
  host_value
theorem W5_v1 : W5 m ρ c (Proc.devRef .tc main_v1) = W2 m ρ c (Proc.devRef .tc main_v1) := by
  show StableHlo.after hostOps1_2 (StableHlo.after hostOps1_1 (StableHlo.after hostOps1 (W2 m ρ c))) (Proc.devRef .tc main_v1) = _
  generalize W2 m ρ c = Wb
  host_value
theorem W5_v3 : W5 m ρ c (Proc.devRef .tc main_v3) = W2 m ρ c (Proc.devRef .tc main_v3) := by
  show StableHlo.after hostOps1_2 (StableHlo.after hostOps1_1 (StableHlo.after hostOps1 (W2 m ρ c))) (Proc.devRef .tc main_v3) = _
  generalize W2 m ρ c = Wb
  host_value
theorem W5_arg4 : W5 m ρ c (Proc.devRef .tc main_arg4) = W2 m ρ c (Proc.devRef .tc main_arg4) := by
  show StableHlo.after hostOps1_2 (StableHlo.after hostOps1_1 (StableHlo.after hostOps1 (W2 m ρ c))) (Proc.devRef .tc main_arg4) = _
  generalize W2 m ρ c = Wb
  host_value
theorem W5_arg5 : W5 m ρ c (Proc.devRef .tc main_arg5) = W2 m ρ c (Proc.devRef .tc main_arg5) := by
  show StableHlo.after hostOps1_2 (StableHlo.after hostOps1_1 (StableHlo.after hostOps1 (W2 m ρ c))) (Proc.devRef .tc main_arg5) = _
  generalize W2 m ρ c = Wb
  host_value

/-- The hidden features before the bias: the neighbourhood sum of `x · W1`. -/
abbrev pre1 : S100000x16.Idx → EReal :=
  Agg.agg16 (F := Ideal) (Agg.row0 (F := Ideal) (m ((c : Thread nD τ).loc main_arg1))) (Agg.row1 (F := Ideal) (m ((c : Thread nD τ).loc main_arg1)))
    (Cert.Dense.matProd (m ((c : Thread nD τ).loc main_arg0) : S100000x128.Idx → EReal) (m ((c : Thread nD τ).loc main_arg2) : S128x16.Idx → EReal))

theorem V5_v43 : (V5 m ρ c main_v43 : S100000x16.Idx → EReal) = pre1 m c := by
  show W5 m ρ c (Proc.devRef .tc main_v43) = _
  rw [W5_v43, W2_v1, W2_v3, W2_v4]
theorem V5_v44 : (V5 m ρ c main_v44 : S1x16.Idx → EReal) = shapeCast S1x16 (m ((c : Thread nD τ).loc main_arg3)) shapeCasts_S16_S1x16 := by
  show W5 m ρ c (Proc.devRef .tc main_v44) = _
  rw [W5_v44, W2_arg3]

/-! ## Launch 1: the bias and the rectifier -/

/-- The hidden features: `relu (agg16 (x · W1) + b1)`. -/
abbrev hidden : S100000x16.Idx → EReal :=
  Cert.Dense.addRowRelu (pre1 m c) (shapeCast S1x16 (m ((c : Thread nD τ).loc main_arg3)) shapeCasts_S16_S1x16)

theorem W6_v45 : W6 m ρ c (Proc.devRef .tc main_v45) = hidden m c := by
  refine (W6_arr m ρ c 2).trans ((Blocks1.final (V5 m ρ) c).trans ?_)
  rw [V5_v43, V5_v44]
theorem W6_v1 : W6 m ρ c (Proc.devRef .tc main_v1) = Agg.row0 (F := Ideal) (m ((c : Thread nD τ).loc main_arg1)) :=
  (W6_of_ne m ρ c main_v1 (by decide)).trans ((W5_v1 m ρ c).trans (W2_v1 m ρ c))
theorem W6_v3 : W6 m ρ c (Proc.devRef .tc main_v3) = Agg.row1 (F := Ideal) (m ((c : Thread nD τ).loc main_arg1)) :=
  (W6_of_ne m ρ c main_v3 (by decide)).trans ((W5_v3 m ρ c).trans (W2_v3 m ρ c))
theorem W6_arg4 : W6 m ρ c (Proc.devRef .tc main_arg4) = m ((c : Thread nD τ).loc main_arg4) :=
  (W6_of_ne m ρ c main_arg4 (by decide)).trans ((W5_arg4 m ρ c).trans (W2_arg4 m ρ c))
theorem W6_arg5 : W6 m ρ c (Proc.devRef .tc main_arg5) = m ((c : Thread nD τ).loc main_arg5) :=
  (W6_of_ne m ρ c main_arg5 (by decide)).trans ((W5_arg5 m ρ c).trans (W2_arg5 m ρ c))

/-! ## Launch 2: times W2 -/

theorem W7_v46 : W7 m ρ c (Proc.devRef .tc main_v46)
    = Cert.Dense.matProd (hidden m c) (m ((c : Thread nD τ).loc main_arg4) : S16x128.Idx → EReal) := by
  refine (W7_arr m ρ c 2).trans ((Blocks2.final (V6 m ρ) c).trans ?_)
  show Cert.Dense.matProd (W6 m ρ c (Proc.devRef .tc main_v45) : S100000x16.Idx → EReal) (W6 m ρ c (Proc.devRef .tc main_arg4) : S16x128.Idx → EReal) = _
  rw [W6_v45, W6_arg4]
theorem W7_v1 : W7 m ρ c (Proc.devRef .tc main_v1) = Agg.row0 (F := Ideal) (m ((c : Thread nD τ).loc main_arg1)) :=
  (W7_of_ne m ρ c main_v1 (by decide)).trans (W6_v1 m ρ c)
theorem W7_v3 : W7 m ρ c (Proc.devRef .tc main_v3) = Agg.row1 (F := Ideal) (m ((c : Thread nD τ).loc main_arg1)) :=
  (W7_of_ne m ρ c main_v3 (by decide)).trans (W6_v3 m ρ c)
theorem W7_arg5 : W7 m ρ c (Proc.devRef .tc main_arg5) = m ((c : Thread nD τ).loc main_arg5) :=
  (W7_of_ne m ρ c main_arg5 (by decide)).trans (W6_arg5 m ρ c)

/-! ## The host stretch before launch 3 -/

theorem W10_v85 : W10 m ρ c (Proc.devRef .tc main_v85)
    = Agg.agg128 (F := Ideal) (W7 m ρ c (Proc.devRef .tc main_v1)) (W7 m ρ c (Proc.devRef .tc main_v3)) (W7 m ρ c (Proc.devRef .tc main_v46)) := by
  show StableHlo.after hostOps3_2 (StableHlo.after hostOps3_1 (StableHlo.after hostOps3 (W7 m ρ c))) (Proc.devRef .tc main_v85) = _
  generalize W7 m ρ c = Wb
  host_value
theorem W10_v86 : W10 m ρ c (Proc.devRef .tc main_v86) = shapeCast S1x128 (W7 m ρ c (Proc.devRef .tc main_arg5)) shapeCasts_S128_S1x128 := by
  show StableHlo.after hostOps3_2 (StableHlo.after hostOps3_1 (StableHlo.after hostOps3 (W7 m ρ c))) (Proc.devRef .tc main_v86) = _
  generalize W7 m ρ c = Wb
  host_value

/-! ## Launch 3: the bias — the result -/

/-- THE RESULT ARRAY at the end of the fold: two graph-convolution layers of the arguments. -/
theorem result : W11 m ρ c (Proc.devRef .tc main_v87)
    = Cert.Dense.addRow
        (Agg.agg128 (F := Ideal) (Agg.row0 (F := Ideal) (m ((c : Thread nD τ).loc main_arg1))) (Agg.row1 (F := Ideal) (m ((c : Thread nD τ).loc main_arg1)))
          (Cert.Dense.matProd (hidden m c) (m ((c : Thread nD τ).loc main_arg4) : S16x128.Idx → EReal)))
        (shapeCast S1x128 (m ((c : Thread nD τ).loc main_arg5)) shapeCasts_S128_S1x128) := by
  refine (W11_arr m ρ c 2).trans ((Blocks3.final (V10 m ρ) c).trans ?_)
  show Cert.Dense.addRow (W10 m ρ c (Proc.devRef .tc main_v85) : S100000x128.Idx → EReal) (W10 m ρ c (Proc.devRef .tc main_v86) : S1x128.Idx → EReal) = _
  rw [W10_v85, W10_v86, W7_v1, W7_v3, W7_v46, W7_arg5]

end Cert.KernelIdeal.Fold

end
-- ==== Proof.lean ====
/-
  Two graph-convolution layers, a Pallas kernel program against its jnp reference, equal on the extended reals.

  Both programs compute, from the node features `x`, the edge list `e` and the layers' weights and biases,

      h   = relu ( agg (x · W1) + b1 )          out = agg (h · W2) + b2 ,

  where `agg` is the symmetric-normalized neighbourhood sum over the edges with a self loop added at every node (a gather of
  the sources' rows, a scaling by deg^(-1/2) at both ends, a scatter-add at the targets). The reference does everything on
  the host. The kernel's program does the graph step with the very same host operations and moves the dense steps into four
  launches that walk the 100000 rows in ten blocks of 10000: `x · W1` and `h · W2` on the matrix unit (operands rounded to
  bf16, which is the identity on the extended reals; a zero accumulator), the bias with and without the rectifier elementwise.

  The proof: each launch leaves ONE function of its operand arrays in its output array (its ten blocks tile the array, and each
  entry of a block is the body's value at the array's entry); the matrix unit's product and the host's `dot_general` are the
  same sum over the contracted coordinate, in the same order; the bias rows and the rectifier agree entry by entry; and the
  graph step, spelt operation for operation alike in both programs, is carried as one function and never opened. No law of
  arithmetic beyond these identities is used, so the precondition (finite inputs) is never opened.

  The idealization rewrote nothing in the kernel, so `preserves` is trivial; the three frames are the generated ones (the
  reference's is its run with the result dropped).
-/
import proofs.«146971_j83124797047347_1_alg».proof.Defs
import proofs.«146971_j83124797047347_1_alg».proof.Proof.Gen.Kernel
import proofs.«146971_j83124797047347_1_alg».proof.Proof.Gen.Kernel.Skeleton
import proofs.«146971_j83124797047347_1_alg».proof.Proof.Gen.Kernel.Launch
import proofs.«146971_j83124797047347_1_alg».proof.Proof.Gen.Kernel.Points
import proofs.«146971_j83124797047347_1_alg».proof.Proof.Gen.Kernel.Frame
import proofs.«146971_j83124797047347_1_alg».proof.Proof.Gen.KernelIdeal
import proofs.«146971_j83124797047347_1_alg».proof.Proof.Gen.KernelIdeal.Skeleton
import proofs.«146971_j83124797047347_1_alg».proof.Proof.Gen.KernelIdeal.Launch
import proofs.«146971_j83124797047347_1_alg».proof.Proof.Gen.KernelIdeal.Points
import proofs.«146971_j83124797047347_1_alg».proof.Proof.Gen.KernelIdeal.Frame
import proofs.«146971_j83124797047347_1_alg».proof.Proof.Gen.ReferenceIdeal
import proofs.«146971_j83124797047347_1_alg».proof.Proof.Gen.Pre_finite_inputs
import proofs.«146971_j83124797047347_1_alg».proof.Proof.RefRun
import proofs.«146971_j83124797047347_1_alg».proof.Proof.RefValue
import proofs.«146971_j83124797047347_1_alg».proof.Proof.AggSame
import proofs.«146971_j83124797047347_1_alg».proof.Proof.KRun
import proofs.«146971_j83124797047347_1_alg».proof.Proof.KFold
import Idealize.ShloMosaic.Adequacy
import Idealize.ShloMosaic.Init

noncomputable section

namespace Cert.Proof

open Idealize.ShloMosaic Idealize.ShloMosaic.TcCoe Idealize.SL.Sem

/-! ## The frames and the idealization -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunP.run (F := Ideal) m ρ)

/-- The ideal pass rewrote no operation of the kernel. -/
theorem preserves : Cert.preserves_Kernel_KernelIdeal := trivial

/-! ## The two results are one function of the arguments -/

/-- The kernel's result array, at the end of the fold through its segments, is the reference's `twoLayers` of the arguments:
    the walk of the fold gives the same dense steps around the kernel program's spelling of the graph step, which is the
    reference's. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W11 m ρ c (Proc.devRef .tc Cert.KernelIdeal.main_v87)
      = Cert.ReferenceIdeal.TwoLayers.twoLayers
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) := by
  rw [Cert.KernelIdeal.Fold.result]
  unfold Cert.ReferenceIdeal.TwoLayers.twoLayers Cert.KernelIdeal.Fold.hidden Cert.KernelIdeal.Fold.pre1
  rw [Cert.AggSame.agg128_eq, Cert.AggSame.agg16_eq, Cert.AggSame.row0_eq, Cert.AggSame.row1_eq]

/-- At `Ideal` the kernel's result array ends at `twoLayers` of its arguments (its run read segment by segment) and the
    reference's at the same function of arguments that agree (its run's composed term, folded). -/
theorem algebraic : Cert.algebraic_KernelIdeal_ReferenceIdeal := by
  intro m ρ m' ρ' _ hagree
  refine ⟨fun c => Cert.ReferenceIdeal.TwoLayers.twoLayers
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (kernel_result m ρ c), (h c).2⟩)
      (Cert.KernelIdeal.Result.run_result (F := Ideal) m ρ)
  · refine (θ_run Cert.ReferenceIdeal.defs _ _).mono (fun _ h c => ⟨(h c).1.trans ?_, (h c).2⟩)
      (Cert.ReferenceIdeal.RunP.run (F := Ideal) m' ρ')
    rw [Cert.ReferenceIdeal.TwoLayers.res_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
